-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256 : Shape := ⟨1, ![256]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S64x256x56x56 .f32) (main_arg1 : FVec F S256 .f32) (main_arg2 : FVec F S256 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S64x256x56x56 : Shape := ⟨4, ![64, 256, 56, 56]⟩
abbrev S256 : Shape := ⟨1, ![256]⟩
abbrev S1x256x1x1 : Shape := ⟨4, ![1, 256, 1, 1]⟩
abbrev S2x256x56x56 : Shape := ⟨4, ![2, 256, 56, 56]⟩
abbrev S2x256x56 : Shape := ⟨3, ![2, 256, 56]⟩
abbrev S2x256x56x1 : Shape := ⟨4, ![2, 256, 56, 1]⟩
abbrev S2x256x1 : Shape := ⟨3, ![2, 256, 1]⟩
abbrev S2x256x1x1 : Shape := ⟨4, ![2, 256, 1, 1]⟩
abbrev S256x1x1 : Shape := ⟨3, ![256, 1, 1]⟩
abbrev S_ : Shape := ⟨0, ![]⟩
abbrev S1x256x56x56 : Shape := ⟨4, ![1, 256, 56, 56]⟩

abbrev nBuf : Space → Nat
  | .hbm => 26
  | .vmem => 10
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S1x256x1x1, .f32⟩
  | .hbm, ⟨4, _⟩ => ⟨S1x256x1x1, .f32⟩
  | .hbm, ⟨5, _⟩ => ⟨S_, .f32⟩
  | .hbm, ⟨6, _⟩ => ⟨S1x256x1x1, .f32⟩
  | .hbm, ⟨7, _⟩ => ⟨S1x256x1x1, .f32⟩
  | .hbm, ⟨8, _⟩ => ⟨S_, .f32⟩
  | .hbm, ⟨9, _⟩ => ⟨S1x256x1x1, .f32⟩
  | .hbm, ⟨10, _⟩ => ⟨S1x256x1x1, .f32⟩
  | .hbm, ⟨11, _⟩ => ⟨S1x256x1x1, .f32⟩
  | .hbm, ⟨12, _⟩ => ⟨S1x256x1x1, .f32⟩
  | .hbm, ⟨13, _⟩ => ⟨S_, .f32⟩
  | .hbm, ⟨14, _⟩ => ⟨S1x256x1x1, .f32⟩
  | .hbm, ⟨15, _⟩ => ⟨S1x256x1x1, .f32⟩
  | .hbm, ⟨16, _⟩ => ⟨S1x256x1x1, .f32⟩
  | .hbm, ⟨17, _⟩ => ⟨S1x256x1x1, .f32⟩
  | .hbm, ⟨18, _⟩ => ⟨S_, .f32⟩
  | .hbm, ⟨19, _⟩ => ⟨S1x256x1x1, .f32⟩
  | .hbm, ⟨20, _⟩ => ⟨S1x256x1x1, .f32⟩
  | .hbm, ⟨21, _⟩ => ⟨S1x256x1x1, .f32⟩
  | .hbm, ⟨22, _⟩ => ⟨S1x256x1x1, .f32⟩
  | .hbm, ⟨23, _⟩ => ⟨S1x256x1x1, .f32⟩
  | .hbm, ⟨24, _⟩ => ⟨S1x256x1x1, .f32⟩
  | .hbm, ⟨25, _⟩ => ⟨S64x256x56x56, .f32⟩
  | .local _ .vmem, ⟨0, _⟩ => ⟨S2x256x56x56, .f32⟩
  | .local _ .vmem, ⟨1, _⟩ => ⟨S2x256x56x56, .f32⟩
  | .local _ .vmem, ⟨2, _⟩ => ⟨S1x256x1x1, .f32⟩
  | .local _ .vmem, ⟨3, _⟩ => ⟨S1x256x1x1, .f32⟩
  | .local _ .vmem, ⟨4, _⟩ => ⟨S1x256x56x56, .f32⟩
  | .local _ .vmem, ⟨5, _⟩ => ⟨S1x256x56x56, .f32⟩
  | .local _ .vmem, ⟨6, _⟩ => ⟨S1x256x1x1, .f32⟩
  | .local _ .vmem, ⟨7, _⟩ => ⟨S1x256x1x1, .f32⟩
  | .local _ .vmem, ⟨8, _⟩ => ⟨S1x256x56x56, .f32⟩
  | .local _ .vmem, ⟨9, _⟩ => ⟨S1x256x56x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S2x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x256x56x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x256x56x56 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x256x1x1_S1x256x1x1_0_0_0_0 : ∀ a, (![0, 0, 0, 0] : Fin 4 → Nat) a + S1x256x1x1.size a ≤ S1x256x1x1.size a
  h_S1x256x1x1 : 0 < S1x256x1x1.numel
  inb_S2x256x56x56_S2x256x56x56_0_0_0_0 : ∀ a, (![0, 0, 0, 0] : Fin 4 → Nat) a + S2x256x56x56.size a ≤ S2x256x56x56.size a
  h_S2x256x56x56 : 0 < S2x256x56x56.numel
  reduces_S2x256x56x56_S2x256x56 : S2x256x56x56.Reduces [3] S2x256x56
  shapeCasts_S2x256x56_S2x256x56x1 : S2x256x56.ShapeCasts S2x256x56x1
  reduces_S2x256x56x1_S2x256x1 : S2x256x56x1.Reduces [2] S2x256x1
  shapeCasts_S2x256x1_S2x256x1x1 : S2x256x1.ShapeCasts S2x256x1x1
  reduces_S2x256x1x1_S256x1x1 : S2x256x1x1.Reduces [0] S256x1x1
  shapeCasts_S256x1x1_S1x256x1x1 : S256x1x1.ShapeCasts S1x256x1x1
  shapeCasts_S1x256x1x1_S1x256x1x1 : S1x256x1x1.ShapeCasts S1x256x1x1
  bcast_S_S1x256x1x1 : S_.BroadcastsInDim S1x256x1x1 (![] : Fin 0 → Fin S1x256x1x1.rank)
  shapeCasts_S256_S1x256x1x1 : S256.ShapeCasts S1x256x1x1
  inb_S1x256x56x56_S1x256x56x56_0_0_0_0 : ∀ a, (![0, 0, 0, 0] : Fin 4 → Nat) a + S1x256x56x56.size a ≤ S1x256x56x56.size a
  h_S1x256x56x56 : 0 < S1x256x56x56.numel
  broadcasts_S1x256x1x1_S1x256x56x56 : S1x256x1x1.Broadcasts S1x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x56x56.size a ≤ S64x256x56x56.size a
  hwx0_0 : ∀ i : grid0.Coords, EltTy.bits .f32 = 32 ∨ (Rect.block (s := S64x256x56x56) S2x256x56x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256x1x1.size a ≤ S1x256x1x1.size a
  hwx0_1 : ∀ i : grid0.Coords, EltTy.bits .f32 = 32 ∨ (Rect.block (s := S1x256x1x1) S1x256x1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256x1x1.size a ≤ S1x256x1x1.size a
  hwx0_2 : ∀ i : grid0.Coords, EltTy.bits .f32 = 32 ∨ (Rect.block (s := S1x256x1x1) S1x256x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x56x56.size a ≤ S64x256x56x56.size a
  hwx1_0 : ∀ i : grid1.Coords, EltTy.bits .f32 = 32 ∨ (Rect.block (s := S64x256x56x56) S1x256x56x56.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256x1x1.size a ≤ S1x256x1x1.size a
  hwx1_1 : ∀ i : grid1.Coords, EltTy.bits .f32 = 32 ∨ (Rect.block (s := S1x256x1x1) S1x256x1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256x1x1.size a ≤ S1x256x1x1.size a
  hwx1_2 : ∀ i : grid1.Coords, EltTy.bits .f32 = 32 ∨ (Rect.block (s := S1x256x1x1) S1x256x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x56x56.size a ≤ S64x256x56x56.size a
  hwx1_3 : ∀ i : grid1.Coords, EltTy.bits .f32 = 32 ∨ (Rect.block (s := S64x256x56x56) S1x256x56x56.size (cc1_transform_3 i) (hinb1_3 i)).WholeWords (EltTy.packing .f32)

variable [Facts₀]

abbrev win0_0 : Pipeline.Window sig grid0 :=
  Pipeline.Window.ofSpec (Memref.whole main_arg0) S2x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x256x1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x256x1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x256x56x56.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x256x1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x256x1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x256x56x56.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x256x56x56 : Shape := ⟨4, ![64, 256, 56, 56]⟩
abbrev S256 : Shape := ⟨1, ![256]⟩
abbrev S_ : Shape := ⟨0, ![]⟩
abbrev S1x256x1x1 : Shape := ⟨4, ![1, 256, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S1x256x1x1, .f32⟩
  | .hbm, ⟨6, _⟩ => ⟨S_, .f32⟩
  | .hbm, ⟨7, _⟩ => ⟨S1x256x1x1, .f32⟩
  | .hbm, ⟨8, _⟩ => ⟨S1x256x1x1, .f32⟩
  | .hbm, ⟨9, _⟩ => ⟨S64x256x56x56, .f32⟩
  | .hbm, ⟨10, _⟩ => ⟨S64x256x56x56, .f32⟩
  | .hbm, ⟨11, _⟩ => ⟨S64x256x56x56, .f32⟩
  | .hbm, ⟨12, _⟩ => ⟨S_, .f32⟩
  | .hbm, ⟨13, _⟩ => ⟨S256, .f32⟩
  | .hbm, ⟨14, _⟩ => ⟨S1x256x1x1, .f32⟩
  | .hbm, ⟨15, _⟩ => ⟨S_, .f32⟩
  | .hbm, ⟨16, _⟩ => ⟨S1x256x1x1, .f32⟩
  | .hbm, ⟨17, _⟩ => ⟨S1x256x1x1, .f32⟩
  | .hbm, ⟨18, _⟩ => ⟨S_, .f32⟩
  | .hbm, ⟨19, _⟩ => ⟨S1x256x1x1, .f32⟩
  | .hbm, ⟨20, _⟩ => ⟨S1x256x1x1, .f32⟩
  | .hbm, ⟨21, _⟩ => ⟨S1x256x1x1, .f32⟩
  | .hbm, ⟨22, _⟩ => ⟨S64x256x56x56, .f32⟩
  | .hbm, ⟨23, _⟩ => ⟨S64x256x56x56, .f32⟩
  | .hbm, ⟨24, _⟩ => ⟨S64x256x56x56, .f32⟩
  | .hbm, ⟨25, _⟩ => ⟨S64x256x56x56, .f32⟩
  | .hbm, ⟨26, _⟩ => ⟨S1x256x1x1, .f32⟩
  | .hbm, ⟨27, _⟩ => ⟨S64x256x56x56, .f32⟩
  | .hbm, ⟨28, _⟩ => ⟨S64x256x56x56, .f32⟩
  | .hbm, ⟨29, _⟩ => ⟨S1x256x1x1, .f32⟩
  | .hbm, ⟨30, _⟩ => ⟨S64x256x56x56, .f32⟩
  | .hbm, ⟨31, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S64x256x56x56_S256_d0_2_3 : S64x256x56x56.ReducesTo [0, 2, 3] S256
  h_S_ : 0 < S_.numel
  bcast_S256_S1x256x1x1_1 : S256.BroadcastsInDim S1x256x1x1 (![1] : Fin 1 → Fin S1x256x1x1.rank)
  bcast_S_S1x256x1x1 : S_.BroadcastsInDim S1x256x1x1 (![] : Fin 0 → Fin S1x256x1x1.rank)
  bcast_S1x256x1x1_S64x256x56x56_0_1_2_3 : S1x256x1x1.BroadcastsInDim S64x256x56x56 (![0, 1, 2, 3] : Fin 4 → Fin S64x256x56x56.rank)
  shapeCasts_S256_S1x256x1x1 : S256.ShapeCasts S1x256x1x1

variable [Facts₀]

class Facts : Prop extends Facts₀ where

variable [Facts]
-- ==== Proof.KRun.lean ====
/-
  The whole program's run, read at the result array.

  @main is three segments: the statistics region, a stretch of host operations, the normalising region. The
  buffer contents at the end of the last segment are known by name (the fold through the segments); every
  weakly fair execution ends in a memory that agrees with that fold on every unscoped buffer. Here the agreement
  is read at the result array as well as at the three arguments, so the result is what the last region's
  write-backs leave in its output window's array.
-/
import proofs.«117669_j180388626599_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the contents the
    segments' fold names for it and the three arguments as launched. -/
theorem run_fold : θ_run defs (onTc (τ := τ) (main (F := F))) ⟨m, fun _ => 0, ρ⟩ (fun r => ∀ c : Dev nD,
      r.2.mem ((c.tc : Thread nD τ).loc main_v17) = W3 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v17 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

/-- The result array's contents in the fold are what the normalising region's write-backs leave in its output
    window's array. -/
theorem fold_result (c : Dev nD) :
    W3 m ρ c (Proc.devRef .tc main_v17) = (dat1 (V2 m ρ) c).arrAt 3 cfg1.N :=
  W3_arr m ρ c 3

end Cert.KernelIdeal.Whole

end
-- ==== Proof.Stats.lean ====
/-
  The statistics region: per channel, the sums of `x` and of `x²`, accumulated over the grid.

  The grid has 32 points; point `t` reads batches `2t` and `2t + 1` (a [2, 256, 56, 56] block). Both outputs are
  [1, 256, 1, 1] blocks whose index never moves, so they stay in their staging buffers from point to point and are
  written back once, after the last point. At the first point the body stores a zero block and then adds the
  block's sums to it; at every later point it adds the block's sums to what the point before left. So after point
  `n` each accumulator holds, per channel, the sum over the batches `0 … 2n + 1`.
-/
import proofs.«117669_j180388626599_2_alg».proof.Proof.Gen.KernelIdeal.Frame
import Idealize.ShloMosaic.Lib.Pipeline.Value
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz : (![0, 0, 0, 0] : Fin 4 → Nat) = fun _ => 0 := funext fun a => by fin_cases a <;> rfl

/-! ## What one point leaves in the accumulators -/

/-- A later point: the sum accumulator, holding `s`, is left at `s` plus the block's sums. -/
theorem later_sum (c : Dev nD) (i : grid0.Coords) (a1 : Memref sig .tc .vmem S2x256x56x56 .f32) (h1 : a1.IsWhole)
    (a2 : Memref sig .tc .vmem S1x256x1x1 .f32) (h2 : a2.IsWhole) (a3 : Memref sig .tc .vmem S1x256x1x1 .f32) (h3 : a3.IsWhole)
    (hc : ¬cond0_0 i) (x : Vec F S2x256x56x56 .f32) (s q : Vec F S1x256x1x1 .f32) :
    out0_B_1 c i a1 h1 a2 h2 a3 h3 hc x s q = k0_pay3 x s := by
  unfold out0_B_1
  rw [View.read_writes_eq_canon _ _ _ (cover0_B_1 c i a1 h1 a2 h2 a3 h3 hc x s q)]
  unfold kernelRun0_B
  dsimp only
  rw [View.canon_unit_zero hz]
  simp only [View.readAt_eq_ld, h1.read_unread, h2.read_unread, h3.read_unread, View.ld_unit_zero (S := S2x256x56x56) hz,
    View.ld_unit_zero (S := S1x256x1x1) hz]

/-- A later point: the accumulator of squares, holding `q`, is left at `q` plus the block's sums of squares. -/
theorem later_sq (c : Dev nD) (i : grid0.Coords) (a1 : Memref sig .tc .vmem S2x256x56x56 .f32) (h1 : a1.IsWhole)
    (a2 : Memref sig .tc .vmem S1x256x1x1 .f32) (h2 : a2.IsWhole) (a3 : Memref sig .tc .vmem S1x256x1x1 .f32) (h3 : a3.IsWhole)
    (hc : ¬cond0_0 i) (x : Vec F S2x256x56x56 .f32) (s q : Vec F S1x256x1x1 .f32) :
    out0_B_2 c i a1 h1 a2 h2 a3 h3 hc x s q = k0_pay4 x q := by
  unfold out0_B_2
  rw [View.read_writes_eq_canon _ _ _ (cover0_B_2 c i a1 h1 a2 h2 a3 h3 hc x s q)]
  unfold kernelRun0_B
  dsimp only
  rw [View.canon_unit_zero hz]
  simp only [View.readAt_eq_ld, h1.read_unread, h2.read_unread, h3.read_unread, View.ld_unit_zero (S := S2x256x56x56) hz,
    View.ld_unit_zero (S := S1x256x1x1) hz]

/-- The first point: the sum accumulator is zeroed, read back, and left at the zero block plus the block's sums. -/
theorem first_sum (c : Dev nD) (i : grid0.Coords) (a1 : Memref sig .tc .vmem S2x256x56x56 .f32) (h1 : a1.IsWhole)
    (a2 : Memref sig .tc .vmem S1x256x1x1 .f32) (h2 : a2.IsWhole) (a3 : Memref sig .tc .vmem S1x256x1x1 .f32) (h3 : a3.IsWhole)
    (hc : cond0_0 i) (x : Vec F S2x256x56x56 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x256x1x1) hz, View.readCov_unit_zero (S := S1x256x1x1) _ hz]
  simp only [View.readAt_eq_ld, h1.read_unread, View.ld_unit_zero (S := S2x256x56x56) hz,
    View.ld_unit_zero (S := S1x256x1x1) hz]

/-- The first point: likewise the accumulator of squares. -/
theorem first_sq (c : Dev nD) (i : grid0.Coords) (a1 : Memref sig .tc .vmem S2x256x56x56 .f32) (h1 : a1.IsWhole)
    (a2 : Memref sig .tc .vmem S1x256x1x1 .f32) (h2 : a2.IsWhole) (a3 : Memref sig .tc .vmem S1x256x1x1 .f32) (h3 : a3.IsWhole)
    (hc : cond0_0 i) (x : Vec F S2x256x56x56 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x256x1x1) hz, View.readCov_unit_zero (S := S1x256x1x1) _ hz]
  simp only [View.readAt_eq_ld, h1.read_unread, View.ld_unit_zero (S := S2x256x56x56) hz,
    View.ld_unit_zero (S := S1x256x1x1) hz]

/-! ## The running pair -/

/-- The two accumulators after point `n`: the zero blocks plus the first block's sums, then one block's sums more
    per point. -/
def acc (c : Dev nD) : (n : ℕ) → n < cfg0.N → Vec F S1x256x1x1 .f32 × Vec F S1x256x1x1 .f32
  | 0, h => (k0_pay3 (iblk0 V c 0 ⟨0, h⟩) (k0_pay1 (F := F)), k0_pay4 (iblk0 V c 0 ⟨0, h⟩) (k0_pay2 (F := F)))
  | n + 1, h => (k0_pay3 (iblk0 V c 0 ⟨n + 1, h⟩) (acc c n (Nat.lt_of_succ_lt h)).1,
      k0_pay4 (iblk0 V c 0 ⟨n + 1, h⟩) (acc c n (Nat.lt_of_succ_lt h)).2)

/-- What the staging buffers hold after point `n` is the running pair: by induction on the point. -/
theorem outsAt_eq (c : Dev nD) : ∀ (n : ℕ) (h : n < cfg0.N), outsAt0 V c n h = acc V c n h
  | 0, h => by
    rw [outsAt0_A V c ⟨0, h⟩ rfl, first_sum, first_sq]
    rfl
  | n + 1, h => by
    have hN : cfg0.N = 32 := N_0
    have hB : ¬(⟨n + 1, h⟩ : Fin cfg0.N).val % 32 = 0 := by dsimp only; omega
    rw [outsAt0_B V c ⟨n + 1, h⟩ hB, later_sum, later_sq]
    show (k0_pay3 _ (outsAt0 V c n _).1, k0_pay4 _ (outsAt0 V c n _).2) = (k0_pay3 _ (acc V c n _).1, k0_pay4 _ (acc V c n _).2)
    rw [outsAt_eq c n]

/-! ## The one write-back -/

/-- The last grid point, the only one after which the accumulators are written back. -/
abbrev lastPt : Fin cfg0.N := ⟨31, by rw [show cfg0.N = 32 from N_0]; decide⟩

/-- The two accumulators after the last point. -/
abbrev sums (c : Dev nD) : Vec F S1x256x1x1 .f32 × Vec F S1x256x1x1 .f32 :=
  acc V c 31 (by rw [show cfg0.N = 32 from N_0]; decide)

/-- The write-back of the sums, after the last point, writes the running sums: block (0, 0, 0, 0) of the
    [1, 256, 1, 1] array read through zero offsets is the array. -/
theorem flushed_sum (c : Dev nD) (t : Fin cfg0.N) (hf : (cfg0.win 1).flush t = true) :
    (dat0 V c).flushed 1 t = ((cfg0.win 1).blk t).view.read (Elt F) (sums V c).1 := by
  have hN : cfg0.N = 32 := N_0
  have h31 : t.val = 31 := by have := (flush0_1 t).mp hf; have := t.isLt; omega
  obtain rfl : t = lastPt := Fin.ext h31
  show (cfg0.win 1).cut (grid0.coords lastPt) ((dat0 V c).after 1 lastPt) = _
  rw [after0_1, outsAt_eq]
  have hz' : (fun a => win0_1.index lastPt a * main_v0_0.ty.shape.size a) = fun _ => 0 := funext fun a => by fin_cases a <;> decide
  exact (Memref.read_access_unit_zero (Elt F) main_v0_0 hz' (fun a => by rw [congrFun hz' a]; simp) (sums V c).1).symm

/-- So the array of sums ends holding the running sums after the last point: that point's block is the array. -/
theorem final_sum (c : Dev nD) : (dat0 V c).arrAt 1 cfg0.N = (sums V c).1 :=
  (dat0 V c).arrAt_eq_of_cover 1 (sums V c).1 (flushed_sum V c) fun i =>
    ⟨lastPt, (flush0_1 lastPt).mpr rfl, by
      show i ∈ ((View.whole main_v0_0).slice (win0_1.rect lastPt)).set
      rw [View.set_slice_whole, Rect.mem_set_unit]
      intro a
      have h0 : (i 0 : Nat) < 1 := (i 0).isLt
      have h1 : (i 1 : Nat) < 256 := (i 1).isLt
      have h2 : (i 2 : Nat) < 1 := (i 2).isLt
      have h3 : (i 3 : Nat) < 1 := (i 3).isLt
      match a with
      | ⟨0, _⟩ => show win0_1.index lastPt 0 * win0_1.size 0 ≤ (i 0 : Nat) ∧ (i 0 : Nat) < win0_1.index lastPt 0 * win0_1.size 0 + win0_1.xsize (grid0.coords lastPt) 0
                  rw [show win0_1.index lastPt 0 * win0_1.size 0 = 0 from by decide +kernel, show win0_1.xsize (grid0.coords lastPt) 0 = 1 from by decide +kernel]; omega
      | ⟨1, _⟩ => show win0_1.index lastPt 1 * win0_1.size 1 ≤ (i 1 : Nat) ∧ (i 1 : Nat) < win0_1.index lastPt 1 * win0_1.size 1 + win0_1.xsize (grid0.coords lastPt) 1
                  rw [show win0_1.index lastPt 1 * win0_1.size 1 = 0 from by decide +kernel, show win0_1.xsize (grid0.coords lastPt) 1 = 256 from by decide +kernel]; omega
      | ⟨2, _⟩ => show win0_1.index lastPt 2 * win0_1.size 2 ≤ (i 2 : Nat) ∧ (i 2 : Nat) < win0_1.index lastPt 2 * win0_1.size 2 + win0_1.xsize (grid0.coords lastPt) 2
                  rw [show win0_1.index lastPt 2 * win0_1.size 2 = 0 from by decide +kernel, show win0_1.xsize (grid0.coords lastPt) 2 = 1 from by decide +kernel]; omega
      | ⟨3, _⟩ => show win0_1.index lastPt 3 * win0_1.size 3 ≤ (i 3 : Nat) ∧ (i 3 : Nat) < win0_1.index lastPt 3 * win0_1.size 3 + win0_1.xsize (grid0.coords lastPt) 3
                  rw [show win0_1.index lastPt 3 * win0_1.size 3 = 0 from by decide +kernel, show win0_1.xsize (grid0.coords lastPt) 3 = 1 from by decide +kernel]; omega⟩

/-- The write-back of the sums of squares likewise. -/
theorem flushed_sq (c : Dev nD) (t : Fin cfg0.N) (hf : (cfg0.win 2).flush t = true) :
    (dat0 V c).flushed 2 t = ((cfg0.win 2).blk t).view.read (Elt F) (sums V c).2 := by
  have hN : cfg0.N = 32 := N_0
  have h31 : t.val = 31 := by have := (flush0_2 t).mp hf; have := t.isLt; omega
  obtain rfl : t = lastPt := Fin.ext h31
  show (cfg0.win 2).cut (grid0.coords lastPt) ((dat0 V c).after 2 lastPt) = _
  rw [after0_2, outsAt_eq]
  have hz' : (fun a => win0_2.index lastPt a * main_v0_1.ty.shape.size a) = fun _ => 0 := funext fun a => by fin_cases a <;> decide
  exact (Memref.read_access_unit_zero (Elt F) main_v0_1 hz' (fun a => by rw [congrFun hz' a]; simp) (sums V c).2).symm

/-- So the array of sums of squares ends holding the running sums of squares after the last point. -/
theorem final_sq (c : Dev nD) : (dat0 V c).arrAt 2 cfg0.N = (sums V c).2 :=
  (dat0 V c).arrAt_eq_of_cover 2 (sums V c).2 (flushed_sq V c) fun i =>
    ⟨lastPt, (flush0_2 lastPt).mpr rfl, by
      show i ∈ ((View.whole main_v0_1).slice (win0_2.rect lastPt)).set
      rw [View.set_slice_whole, Rect.mem_set_unit]
      intro a
      have h0 : (i 0 : Nat) < 1 := (i 0).isLt
      have h1 : (i 1 : Nat) < 256 := (i 1).isLt
      have h2 : (i 2 : Nat) < 1 := (i 2).isLt
      have h3 : (i 3 : Nat) < 1 := (i 3).isLt
      match a with
      | ⟨0, _⟩ => show win0_2.index lastPt 0 * win0_2.size 0 ≤ (i 0 : Nat) ∧ (i 0 : Nat) < win0_2.index lastPt 0 * win0_2.size 0 + win0_2.xsize (grid0.coords lastPt) 0
                  rw [show win0_2.index lastPt 0 * win0_2.size 0 = 0 from by decide +kernel, show win0_2.xsize (grid0.coords lastPt) 0 = 1 from by decide +kernel]; omega
      | ⟨1, _⟩ => show win0_2.index lastPt 1 * win0_2.size 1 ≤ (i 1 : Nat) ∧ (i 1 : Nat) < win0_2.index lastPt 1 * win0_2.size 1 + win0_2.xsize (grid0.coords lastPt) 1
                  rw [show win0_2.index lastPt 1 * win0_2.size 1 = 0 from by decide +kernel, show win0_2.xsize (grid0.coords lastPt) 1 = 256 from by decide +kernel]; omega
      | ⟨2, _⟩ => show win0_2.index lastPt 2 * win0_2.size 2 ≤ (i 2 : Nat) ∧ (i 2 : Nat) < win0_2.index lastPt 2 * win0_2.size 2 + win0_2.xsize (grid0.coords lastPt) 2
                  rw [show win0_2.index lastPt 2 * win0_2.size 2 = 0 from by decide +kernel, show win0_2.xsize (grid0.coords lastPt) 2 = 1 from by decide +kernel]; omega
      | ⟨3, _⟩ => show win0_2.index lastPt 3 * win0_2.size 3 ≤ (i 3 : Nat) ∧ (i 3 : Nat) < win0_2.index lastPt 3 * win0_2.size 3 + win0_2.xsize (grid0.coords lastPt) 3
                  rw [show win0_2.index lastPt 3 * win0_2.size 3 = 0 from by decide +kernel, show win0_2.xsize (grid0.coords lastPt) 3 = 1 from by decide +kernel]; omega⟩

end Cert.KernelIdeal.Stats

end
-- ==== Proof.BlockSum.lean ====
/-
  One point's contribution to the statistics, read at a channel.

  The body sums a [2, 256, 56, 56] block over its columns, then its rows, then its two batches, keeping a unit axis
  after each sum, and lands on a [1, 256, 1, 1] block. At channel `c` that is the sum of the block's entries
  `(b, c, h, w)` over `b < 2`, `h < 56`, `w < 56`: each one-axis sum is a sum over that axis's coordinate, and each
  change of shape keeps the row-major position.
-/
import proofs.«117669_j180388626599_2_alg».proof.Proof.Gen.KernelIdeal.Skeleton
import Idealize.ShloMosaic.PureOps.Ideal.Laws
import Idealize.ShloMosaic.Lib.Pipeline.Value
import Idealize.ShloMosaic.Lib.ValueIdx

noncomputable section

namespace Cert.KernelIdeal.BlockSum

open Cert.KernelIdeal Cert.KernelIdeal.Gen
open Idealize.ShloMosaic Idealize.ShloMosaic.ValueIdx

/-- The sum of a two-batch block over the positions of channel `c`. -/
def blockSum (x : S2x256x56x56.Idx → EReal) (c : Fin 256) : EReal :=
  ∑ b : Fin 2, ∑ h : Fin 56, ∑ w : Fin 56, x (ix4 b c h w)

/-- Summing over the columns. -/
theorem sum_cols (v : FVec Ideal S2x256x56x56 .f32) (hr : S2x256x56x56.Reduces [3] S2x256x56) (hφ : FKind.Formats .f32)
    (hacc : (0x00000000#32 : BitVec 32) = FKind.add.neutral .f32 hφ) (b : Fin 2) (c : Fin 256) (h : Fin 56) :
    multiReduction .add [3] S2x256x56 v 0x00000000#32 hr hφ hacc (ix3 b c h)
      = ∑ w : Fin 56, v (ix4 b c h w) := by
  refine (Ideal.multiReduction_add_single v 0x00000000#32 hr hφ hacc (ix3 b c h)).trans ?_
  refine Finset.sum_congr rfl fun w _ => congrArg v ?_
  funext a
  match a with
  | ⟨0, _⟩ => rfl
  | ⟨1, _⟩ => rfl
  | ⟨2, _⟩ => rfl
  | ⟨3, _⟩ => rfl

/-- Summing over the rows (a unit axis in last place). -/
theorem sum_rows (v : FVec Ideal S2x256x56x1 .f32) (hr : S2x256x56x1.Reduces [2] S2x256x1) (hφ : FKind.Formats .f32)
    (hacc : (0x00000000#32 : BitVec 32) = FKind.add.neutral .f32 hφ) (b : Fin 2) (c : Fin 256) :
    multiReduction .add [2] S2x256x1 v 0x00000000#32 hr hφ hacc (ix3 b c 0)
      = ∑ h : Fin 56, v (ix4 b c h 0) := by
  refine (Ideal.multiReduction_add_single v 0x00000000#32 hr hφ hacc (ix3 b c 0)).trans ?_
  refine Finset.sum_congr rfl fun h _ => congrArg v ?_
  funext a
  match a with
  | ⟨0, _⟩ => rfl
  | ⟨1, _⟩ => rfl
  | ⟨2, _⟩ => rfl
  | ⟨3, _⟩ => rfl

/-- Summing over the block's two batches. -/
theorem sum_batches (v : FVec Ideal S2x256x1x1 .f32) (hr : S2x256x1x1.Reduces [0] S256x1x1) (hφ : FKind.Formats .f32)
    (hacc : (0x00000000#32 : BitVec 32) = FKind.add.neutral .f32 hφ) (c : Fin 256) :
    multiReduction .add [0] S256x1x1 v 0x00000000#32 hr hφ hacc (ix3 c 0 0)
      = ∑ b : Fin 2, v (ix4 b c 0 0) := by
  refine (Ideal.multiReduction_add_single v 0x00000000#32 hr hφ hacc (ix3 c 0 0)).trans ?_
  refine Finset.sum_congr rfl fun b _ => congrArg v ?_
  funext a
  match a with
  | ⟨0, _⟩ => rfl
  | ⟨1, _⟩ => rfl
  | ⟨2, _⟩ => rfl
  | ⟨3, _⟩ => rfl

/-- The three sums with their changes of shape, at channel `c`: the block's sum over that channel's positions. -/
theorem total_apply (v : FVec Ideal S2x256x56x56 .f32) (c : Fin 256)
    (r3 : S2x256x56x56.Reduces [3] S2x256x56) (c3 : S2x256x56.ShapeCasts S2x256x56x1)
    (r2 : S2x256x56x1.Reduces [2] S2x256x1) (c2 : S2x256x1.ShapeCasts S2x256x1x1)
    (r0 : S2x256x1x1.Reduces [0] S256x1x1) (c0 : S256x1x1.ShapeCasts S1x256x1x1)
    (hφ : FKind.Formats .f32) (hacc : (0x00000000#32 : BitVec 32) = FKind.add.neutral .f32 hφ) :
    shapeCast S1x256x1x1
      (multiReduction .add [0] S256x1x1
        (shapeCast S2x256x1x1
          (multiReduction .add [2] S2x256x1
            (shapeCast S2x256x56x1
              (multiReduction .add [3] S2x256x56 v 0x00000000#32 r3 hφ hacc)
              c3)
            0x00000000#32 r2 hφ hacc)
          c2)
        0x00000000#32 r0 hφ hacc)
      c0 (ix4 0 c 0 0)
    = blockSum v c := by
  refine (shapeCast_apply _ _ (ix4 0 c 0 0) (ix3 c 0 0) ?_).trans ?_
  · rw [Shape.rowMajor_val_three, Shape.rowMajor_val_four]
    show (c.val * 1 + 0) * 1 + 0 = ((0 * 256 + c.val) * 1 + 0) * 1 + 0
    omega
  refine (sum_batches _ _ _ _ c).trans ?_
  refine Finset.sum_congr rfl fun b _ => ?_
  refine (shapeCast_apply _ _ (ix4 b c 0 0) (ix3 b c 0) ?_).trans ?_
  · rw [Shape.rowMajor_val_three, Shape.rowMajor_val_four]
    show (b.val * 256 + c.val) * 1 + 0 = ((b.val * 256 + c.val) * 1 + 0) * 1 + 0
    omega
  refine (sum_rows _ _ _ _ b c).trans ?_
  refine Finset.sum_congr rfl fun h _ => ?_
  refine (shapeCast_apply _ _ (ix4 b c h 0) (ix3 b c h) ?_).trans ?_
  · rw [Shape.rowMajor_val_three, Shape.rowMajor_val_four]
    show (b.val * 256 + c.val) * 56 + h.val = ((b.val * 256 + c.val) * 56 + h.val) * 1 + 0
    omega
  exact sum_cols _ _ _ _ b c h

/-- The sum accumulator's new value at channel `c`: what it held plus the block's sum. -/
theorem pay_sum_apply (x : Vec Ideal S2x256x56x56 .f32) (s : Vec Ideal S1x256x1x1 .f32) (c : Fin 256) :
    k0_pay3 (F := Ideal) x s (ix4 0 c 0 0) = s (ix4 0 c 0 0) + blockSum x c := by
  unfold k0_pay3
  exact congrArg₂ (· + ·) (congrFun (shapeCast_self s _) _) (total_apply x c _ _ _ _ _ _ _ _)

/-- The accumulator of squares likewise, with the block's squares. -/
theorem pay_sq_apply (x : Vec Ideal S2x256x56x56 .f32) (q : Vec Ideal S1x256x1x1 .f32) (c : Fin 256) :
    k0_pay4 (F := Ideal) x q (ix4 0 c 0 0) = q (ix4 0 c 0 0) + blockSum (fun i => x i * x i) c := by
  unfold k0_pay4
  exact congrArg₂ (· + ·) (congrFun (shapeCast_self q _) _) (total_apply (mulf x x) c _ _ _ _ _ _ _ _)

/-- The zero block the first point stores is `0` everywhere. -/
theorem zero_sum_apply (j : S1x256x1x1.Idx) : k0_pay1 (F := Ideal) j = 0 := Ideal.ofBits_zero_f32
theorem zero_sq_apply (j : S1x256x1x1.Idx) : k0_pay2 (F := Ideal) j = 0 := Ideal.ofBits_zero_f32

end Cert.KernelIdeal.BlockSum

end
-- ==== Proof.Spec.lean ====
/-
  Training-mode batch normalisation over f32[64, 256, 56, 56], channel axis 1, as two functions of the
  argument arrays on the extended reals.

  A channel `c` has 64 · 56 · 56 = 200704 positions (batch, row, column). Write `S c` for the sum of `x` over
  them and `Q c` for the sum of `x²`.

  * `oneSweep`: mean `μ = S / n`, variance `max (Q / n − μ², 0)`, scale `a = γ · rsqrt (var + ε)`,
    shift `d = β − μ · a`, result `x · a + d`.
  * `twoSweep`: mean `μ = S / n`, variance `(Σ (x − μ)²) / n`, result `(x − μ) · rsqrt (var + ε) · γ + β`.

  `n` and `ε` are the extended reals two f32 words denote; both formulas use the same two words.
-/
import Idealize.ShloMosaic.PureOps.Ideal
import Idealize.ShloMosaic.Lib.ValueIdx

noncomputable section

namespace Cert.BatchNorm

open Idealize.ShloMosaic Idealize.ShloMosaic.ValueIdx

/-- The activations' shape, and the per-channel parameters' shape. -/
abbrev SX : Shape := ⟨4, ![64, 256, 56, 56]⟩
abbrev SC : Shape := ⟨1, ![256]⟩

/-- The positions of one channel: batch, row, column. -/
abbrev Pos : Type := Fin 64 × Fin 56 × Fin 56

/-- The sum of `f` over the positions of channel `c`. -/
def chanSum (f : SX.Idx → EReal) (c : Fin 256) : EReal :=
  ∑ p : Pos, f (ix4 p.1 c p.2.1 p.2.2)

/-- The number of positions of a channel, `200704.0`, and the variance's guard `ε`, as the words denote them. -/
def count : EReal := Ideal.ofBits .f32 0x48440000#32
def eps : EReal := Ideal.ofBits .f32 0x3727C5AC#32

/-- The channel mean `S / n`. -/
def mean (x : SX.Idx → EReal) (c : Fin 256) : EReal := Ideal.div (chanSum x c) count

/-! ## One sweep: sums of `x` and `x²`, then an affine map -/

def var1 (x : SX.Idx → EReal) (c : Fin 256) : EReal :=
  max (Ideal.div (chanSum (fun i => x i * x i) c) count - mean x c * mean x c) 0

def scale1 (x : SX.Idx → EReal) (γ : SC.Idx → EReal) (c : Fin 256) : EReal :=
  γ (ix1 c) * Ideal.rsqrt (var1 x c + eps)

def shift1 (x : SX.Idx → EReal) (γ β : SC.Idx → EReal) (c : Fin 256) : EReal :=
  β (ix1 c) - mean x c * scale1 x γ c

def oneSweepAt (x : SX.Idx → EReal) (γ β : SC.Idx → EReal) (b : Fin 64) (c : Fin 256) (h w : Fin 56) : EReal :=
  x (ix4 b c h w) * scale1 x γ c + shift1 x γ β c

def oneSweep (x : SX.Idx → EReal) (γ β : SC.Idx → EReal) : SX.Idx → EReal :=
  fun i => oneSweepAt x γ β (i 0) (i 1) (i 2) (i 3)

/-! ## Two sweeps: the mean first, then the centred squares -/

def var2 (x : SX.Idx → EReal) (c : Fin 256) : EReal :=
  Ideal.div (chanSum (fun i => (x i - mean x (i 1)) * (x i - mean x (i 1))) c) count

def twoSweepAt (x : SX.Idx → EReal) (γ β : SC.Idx → EReal) (b : Fin 64) (c : Fin 256) (h w : Fin 56) : EReal :=
  (x (ix4 b c h w) - mean x c) * Ideal.rsqrt (var2 x c + eps) * γ (ix1 c) + β (ix1 c)

def twoSweep (x : SX.Idx → EReal) (γ β : SC.Idx → EReal) : SX.Idx → EReal :=
  fun i => twoSweepAt x γ β (i 0) (i 1) (i 2) (i 3)

theorem oneSweep_ix4 (x : SX.Idx → EReal) (γ β : SC.Idx → EReal) (b : Fin 64) (c : Fin 256) (h w : Fin 56) :
    oneSweep x γ β (ix4 b c h w) = oneSweepAt x γ β b c h w := rfl

theorem twoSweep_ix4 (x : SX.Idx → EReal) (γ β : SC.Idx → EReal) (b : Fin 64) (c : Fin 256) (h w : Fin 56) :
    twoSweep x γ β (ix4 b c h w) = twoSweepAt x γ β b c h w := rfl

/-- Every entry of an array is a real number. -/
def AllReal {s : Shape} (f : s.Idx → EReal) : Prop := ∀ i, ∃ r : ℝ, f i = (r : EReal)

end Cert.BatchNorm

end
-- ==== Proof.StatsValue.lean ====
/-
  The statistics region's two arrays, as numbers.

  After point `n` the sum accumulator holds at channel `c` the sum, over the points `t ≤ n`, of block `t`'s sum
  over that channel; block `t` is batches `2t` and `2t + 1` of `x`. After the last of the 32 points that is the sum
  of `x` over all 64 batches, rows and columns of the channel: the 32 · 2 batches regrouped as 64. Likewise the
  squares. Addition of extended reals is commutative and associative, so no order matters here.
-/
import proofs.«117669_j180388626599_2_alg».proof.Proof.Stats
import proofs.«117669_j180388626599_2_alg».proof.Proof.BlockSum
import proofs.«117669_j180388626599_2_alg».proof.Proof.Spec

set_option maxRecDepth 16384

noncomputable section

namespace Cert.KernelIdeal.StatsValue

open Cert.KernelIdeal Cert.KernelIdeal.Gen Cert.KernelIdeal.Stats Cert.KernelIdeal.BlockSum Cert.BatchNorm
open Idealize.ShloMosaic Idealize.ShloMosaic.TcCoe Idealize.SL.Sem Idealize.ShloMosaic.ValueIdx

/-! ## Regrouping 64 batches as 32 pairs -/

/-- A sum over 64 batches is the sum over 32 pairs of consecutive batches. -/
theorem sum_pairs {M : Type*} [AddCommMonoid M] (g : Fin 64 → M) :
    ∑ k : Fin 64, g k = ∑ t : Fin 32, ∑ b : Fin 2, g ⟨2 * t.val + b.val, by omega⟩ := by
  rw [← (finProdFinEquiv : Fin 32 × Fin 2 ≃ Fin 64).sum_comp g, Fintype.sum_prod_type]
  refine Finset.sum_congr rfl fun t _ => Finset.sum_congr rfl fun b _ => congrArg g (Fin.ext ?_)
  show (finProdFinEquiv (t, b)).val = 2 * t.val + b.val
  rw [finProdFinEquiv_apply_val]
  show b.val + 2 * t.val = 2 * t.val + b.val
  omega

/-- Point `t`'s share of a channel sum: batches `2t` and `2t + 1` (nothing past the grid). -/
def share (f : SX.Idx → EReal) (ch : Fin 256) (t : ℕ) : EReal :=
  if h : t < 32 then ∑ b : Fin 2, ∑ hh : Fin 56, ∑ w : Fin 56, f (ix4 (⟨2 * t + b.val, by omega⟩ : Fin 64) ch hh w) else 0

/-- The 32 shares make the channel sum. -/
theorem sum_shares (f : SX.Idx → EReal) (ch : Fin 256) : ∑ t ∈ Finset.range 32, share f ch t = chanSum f ch := by
  rw [← Fin.sum_univ_eq_sum_range (fun t => share f ch t) 32]
  unfold chanSum
  rw [Fintype.sum_prod_type, sum_pairs]
  refine Finset.sum_congr rfl fun t _ => ?_
  unfold share
  rw [dif_pos t.isLt]
  refine Finset.sum_congr rfl fun b _ => ?_
  rw [Fintype.sum_prod_type]

/-! ## A block of `x`, read at an entry -/

variable (V : (c : Dev nD) → (b : Ref sig .tc) → Buf (Elt Ideal) ((c : Thread nD τ).loc b))

/-- The activations as the region finds them, and point `t`'s block of them, as arrays of extended reals. -/
abbrev acts (c : Dev nD) : SX.Idx → EReal := V c main_arg0
abbrev blkOf (c : Dev nD) (t : Fin cfg0.N) : S2x256x56x56.Idx → EReal := iblk0 V c 0 t

/-- The activations' window over the grid: point `t`'s block starts at batch pair `t`. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0 :=
  (by decide +kernel : ∀ t : Fin grid0.N, _)

/-- Entry `(b, ch, h, w)` of point `t`'s block is entry `(2t + b, ch, h, w)` of the array. -/
theorem blk_read (c : Dev nD) (t : Fin cfg0.N) (ht : t.val < 32) (b : Fin 2) (ch : Fin 256) (h w : Fin 56) :
    iblk0 V c 0 t (ix4 b ch h w) = V c main_arg0 (ix4 (⟨2 * t.val + b.val, by omega⟩ : Fin 64) ch h w) := by
  obtain ⟨e0, e1, e2, e3⟩ := idx_facts t
  unfold iblk0
  rw [View.read_apply]
  show V c main_arg0 _ = V c main_arg0 _
  refine congrArg _ (funext fun a => Fin.ext ?_)
  match a with
  | ⟨0, _⟩ => show win0_0.index t (0 : Fin 4) * 2 + 1 * b.val = 2 * t.val + b.val; omega
  | ⟨1, _⟩ => show win0_0.index t (1 : Fin 4) * 256 + 1 * ch.val = ch.val; omega
  | ⟨2, _⟩ => show win0_0.index t (2 : Fin 4) * 56 + 1 * h.val = h.val; omega
  | ⟨3, _⟩ => show win0_0.index t (3 : Fin 4) * 56 + 1 * w.val = w.val; omega

/-- So a block's sum over a channel is that point's share of the array's channel sum, -/
theorem blockSum_blk (c : Dev nD) (t : Fin cfg0.N) (ch : Fin 256) :
    blockSum (blkOf V c t) ch = share (acts V c) ch t.val := by
  have ht : t.val < 32 := lt_of_lt_of_eq t.isLt (show cfg0.N = 32 from N_0)
  unfold share blockSum
  rw [dif_pos ht]
  refine Finset.sum_congr rfl fun b _ => Finset.sum_congr rfl fun h _ => Finset.sum_congr rfl fun w _ => ?_
  exact blk_read V c t ht b ch h w

/-- and the same of the squares. -/
theorem blockSum_sq_blk (c : Dev nD) (t : Fin cfg0.N) (ch : Fin 256) :
    blockSum (fun i => blkOf V c t i * blkOf V c t i) ch = share (fun i => acts V c i * acts V c i) ch t.val := by
  have ht : t.val < 32 := lt_of_lt_of_eq t.isLt (show cfg0.N = 32 from N_0)
  unfold share blockSum
  rw [dif_pos ht]
  refine Finset.sum_congr rfl fun b _ => Finset.sum_congr rfl fun h _ => Finset.sum_congr rfl fun w _ => ?_
  show blkOf V c t (ix4 b ch h w) * blkOf V c t (ix4 b ch h w) = _
  rw [show blkOf V c t (ix4 b ch h w) = acts V c (ix4 (⟨2 * t.val + b.val, by omega⟩ : Fin 64) ch h w) from blk_read V c t ht b ch h w]

/-! ## The running pair at a channel -/

/-- After point `n`: the shares of the points up to `n`, for the sums and for the squares. -/
theorem acc_apply (c : Dev nD) (ch : Fin 256) : ∀ (n : ℕ) (h : n < cfg0.N),
    (acc V c n h).1 (ix4 0 ch 0 0) = ∑ t ∈ Finset.range (n + 1), share (acts V c) ch t
    ∧ (acc V c n h).2 (ix4 0 ch 0 0) = ∑ t ∈ Finset.range (n + 1), share (fun i => acts V c i * acts V c i) ch t
  | 0, h => by
    constructor
    · show k0_pay3 (F := Ideal) (iblk0 V c 0 ⟨0, h⟩) (k0_pay1 (F := Ideal)) (ix4 0 ch 0 0) = _
      refine (pay_sum_apply (iblk0 V c 0 ⟨0, h⟩) (k0_pay1 (F := Ideal)) ch).trans ?_
      rw [zero_sum_apply, zero_add, Finset.sum_range_one]
      exact blockSum_blk V c ⟨0, h⟩ ch
    · show k0_pay4 (F := Ideal) (iblk0 V c 0 ⟨0, h⟩) (k0_pay2 (F := Ideal)) (ix4 0 ch 0 0) = _
      refine (pay_sq_apply (iblk0 V c 0 ⟨0, h⟩) (k0_pay2 (F := Ideal)) ch).trans ?_
      rw [zero_sq_apply, zero_add, Finset.sum_range_one]
      exact blockSum_sq_blk V c ⟨0, h⟩ ch
  | n + 1, h => by
    obtain ⟨ih1, ih2⟩ := acc_apply c ch n (Nat.lt_of_succ_lt h)
    constructor
    · show k0_pay3 (F := Ideal) (iblk0 V c 0 ⟨n + 1, h⟩) (acc V c n (Nat.lt_of_succ_lt h)).1 (ix4 0 ch 0 0) = _
      refine (pay_sum_apply (iblk0 V c 0 ⟨n + 1, h⟩) (acc V c n (Nat.lt_of_succ_lt h)).1 ch).trans ?_
      rw [ih1, Finset.sum_range_succ _ (n + 1)]
      exact congrArg (_ + ·) (blockSum_blk V c ⟨n + 1, h⟩ ch)
    · show k0_pay4 (F := Ideal) (iblk0 V c 0 ⟨n + 1, h⟩) (acc V c n (Nat.lt_of_succ_lt h)).2 (ix4 0 ch 0 0) = _
      refine (pay_sq_apply (iblk0 V c 0 ⟨n + 1, h⟩) (acc V c n (Nat.lt_of_succ_lt h)).2 ch).trans ?_
      rw [ih2, Finset.sum_range_succ _ (n + 1)]
      exact congrArg (_ + ·) (blockSum_sq_blk V c ⟨n + 1, h⟩ ch)

/-- After the last point: the channel sums of `x` and of `x²`. -/
theorem sums_apply (c : Dev nD) (ch : Fin 256) :
    (sums V c).1 (ix4 0 ch 0 0) = chanSum (acts V c) ch
    ∧ (sums V c).2 (ix4 0 ch 0 0) = chanSum (fun i => acts V c i * acts V c i) ch := by
  obtain ⟨h1, h2⟩ := acc_apply V c ch 31 (by rw [show cfg0.N = 32 from N_0]; decide)
  exact ⟨h1.trans (sum_shares _ ch), h2.trans (sum_shares _ ch)⟩

end Cert.KernelIdeal.StatsValue

end
-- ==== Proof.Norm.lean ====
/-
  The normalising region: `out = x · a + d`, channel by channel.

  The grid has 64 points; point `t` reads batch `t` of `x` (a [1, 256, 56, 56] block) and the whole per-channel
  arrays `a` and `d` ([1, 256, 1, 1], fetched once), and writes batch `t` of the output. The body spreads `a` and
  `d` over rows and columns, multiplies and adds. The 64 output blocks tile the output array, so it ends holding
  `x (b, c, h, w) · a c + d c` everywhere.
-/
import proofs.«117669_j180388626599_2_alg».proof.Proof.Gen.KernelIdeal.Frame
import Idealize.ShloMosaic.Lib.Pipeline.Value
import Idealize.ShloMosaic.Lib.ValueIdx

set_option maxRecDepth 16384

noncomputable section

namespace Cert.KernelIdeal.Norm

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0, 0, 0] : Fin 4 → Nat) = fun _ => 0 := funext fun a => by fin_cases a <;> rfl

/-- The affine map with per-channel coefficients, over the whole array. -/
def affine (x : S64x256x56x56.Idx → EReal) (a d : S1x256x1x1.Idx → EReal) : S64x256x56x56.Idx → EReal :=
  fun i => x i * a (ix4 0 (i 1) 0 0) + d (ix4 0 (i 1) 0 0)

theorem affine_ix4 (x : S64x256x56x56.Idx → EReal) (a d : S1x256x1x1.Idx → EReal) (b : Fin 64) (c : Fin 256) (h w : Fin 56) :
    affine x a d (ix4 b c h w) = x (ix4 b c h w) * a (ix4 0 c 0 0) + d (ix4 0 c 0 0) := rfl

/-! ## The body's value at an entry -/

/-- A per-channel block spread over rows and columns, read at an entry: the channel's coefficient. -/
theorem spread_apply (y : Vec Ideal S1x256x1x1 .f32) (hsc : S1x256x1x1.ShapeCasts S1x256x1x1)
    (hb : S1x256x1x1.Broadcasts S1x256x56x56) (c : Fin 256) (h w : Fin 56) :
    broadcastTo S1x256x56x56 (shapeCast S1x256x1x1 y hsc) hb (ix4 0 c h w) = y (ix4 0 c 0 0) := by
  rw [shapeCast_self]
  exact broadcastTo_apply y hb (ix4 0 c h w) (ix4 0 c 0 0) (fun a => match a with
    | ⟨0, _⟩ => by show 0 = if (1 : Nat) = 1 then 0 else _; rw [if_pos rfl]
    | ⟨1, _⟩ => by show c.val = if (256 : Nat) = 1 then 0 else c.val; rw [if_neg (by decide)]
    | ⟨2, _⟩ => by show 0 = if (1 : Nat) = 1 then 0 else _; rw [if_pos rfl]
    | ⟨3, _⟩ => by show 0 = if (1 : Nat) = 1 then 0 else _; rw [if_pos rfl])

/-- The stored block at an entry: the input entry times the channel's scale plus the channel's shift. -/
theorem pay_apply (x0 : Vec Ideal S1x256x56x56 .f32) (x1 x2 : Vec Ideal S1x256x1x1 .f32) (c : Fin 256) (h w : Fin 56) :
    k1_pay1 (F := Ideal) x0 x1 x2 (ix4 0 c h w) = x0 (ix4 0 c h w) * x1 (ix4 0 c 0 0) + x2 (ix4 0 c 0 0) := by
  unfold k1_pay1
  exact congrArg₂ (· + ·) (congrArg (x0 (ix4 0 c h w) * ·) (spread_apply x1 _ _ c h w)) (spread_apply x2 _ _ c h w)

/-- A point's stored block, given what its three input blocks hold, is the affine map's block for batch `tv`. -/
theorem point_eq (x : S64x256x56x56.Idx → EReal) (a d : S1x256x1x1.Idx → EReal)
    (x0 : Vec Ideal S1x256x56x56 .f32) (x1 x2 : Vec Ideal S1x256x1x1 .f32) (tb : Fin 64)
    (h0 : ∀ (c : Fin 256) (h w : Fin 56), x0 (ix4 0 c h w) = x (ix4 tb c h w)) (h1 : x1 = a) (h2 : x2 = d)
    (j : S1x256x56x56.Idx) :
    k1_pay1 (F := Ideal) x0 x1 x2 j = affine x a d (ix4 tb (j 1) (j 2) (j 3)) := by
  obtain ⟨b, c, h, w, rfl⟩ : ∃ (b : Fin 1) (c : Fin 256) (h w : Fin 56), j = ix4 b c h w := ⟨j 0, j 1, j 2, j 3, eq_ix4 j⟩
  obtain rfl : b = 0 := Subsingleton.elim _ _
  subst h1 h2
  rw [pay_apply, h0]
  rfl

/-! ## What a point writes back -/

/-- The printed index maps over the grid: the activations' input and output blocks are batch `t`; the two
    per-channel blocks never move. -/
theorem idx_facts : ∀ t : Fin cfg1.N,
    win1_0.index t (0 : Fin 4) = t.val ∧ win1_0.index t (1 : Fin 4) = 0 ∧ win1_0.index t (2 : Fin 4) = 0 ∧ win1_0.index t (3 : Fin 4) = 0
    ∧ win1_3.index t (0 : Fin 4) = t.val ∧ win1_3.index t (1 : Fin 4) = 0 ∧ win1_3.index t (2 : Fin 4) = 0 ∧ win1_3.index t (3 : Fin 4) = 0
    ∧ win1_1.index t (0 : Fin 4) = 0 ∧ win1_1.index t (1 : Fin 4) = 0 ∧ win1_1.index t (2 : Fin 4) = 0 ∧ win1_1.index t (3 : Fin 4) = 0
    ∧ win1_2.index t (0 : Fin 4) = 0 ∧ win1_2.index t (1 : Fin 4) = 0 ∧ win1_2.index t (2 : Fin 4) = 0 ∧ win1_2.index t (3 : Fin 4) = 0 :=
  (by decide +kernel : ∀ t : Fin grid1.N, _)

/-- What point `t` writes back is block `t` of the affine map of the arrays as the region finds them. -/
theorem flushed_eq (c : Dev nD) (t : Fin cfg1.N) :
    (dat1 V c).flushed 3 t
      = ((cfg1.win 3).blk t).view.read (Elt Ideal) (affine (V c main_arg0) (V c main_v14) (V c main_v16)) := by
  show (cfg1.win 3).cut (grid1.coords t) ((dat1 V c).after 3 t) = _
  rw [after1_3]
  unfold out1_3
  rw [View.canon_unit_zero hz]
  simp only [View.ld_unit_zero (S := S1x256x56x56) hz, View.ld_unit_zero (S := S1x256x1x1) hz]
  have hN : cfg1.N = 64 := N_1
  have ht : t.val < 64 := by have := t.isLt; omega
  obtain ⟨e00, e01, e02, e03, e30, e31, e32, e33, e10, e11, e12, e13, e20, e21, e22, e23⟩ := idx_facts t
  funext j
  have hemb : ((cfg1.win 3).blk t).view.emb j = ix4 (⟨t.val, ht⟩ : Fin 64) (j 1) (j 2) (j 3) := by
    funext a; apply Fin.ext
    match a with
    | ⟨0, _⟩ => show win1_3.index t (0 : Fin 4) * 1 + 1 * (j 0).val = t.val; have hj : (j 0).val < 1 := (j 0).isLt; omega
    | ⟨1, _⟩ => show win1_3.index t (1 : Fin 4) * 256 + 1 * (j 1).val = (j 1).val; omega
    | ⟨2, _⟩ => show win1_3.index t (2 : Fin 4) * 56 + 1 * (j 2).val = (j 2).val; omega
    | ⟨3, _⟩ => show win1_3.index t (3 : Fin 4) * 56 + 1 * (j 3).val = (j 3).val; omega
  show k1_pay1 (iblk1 V c 0 t) (iblk1 V c 1 t) (iblk1 V c 2 t) j
    = affine (V c main_arg0) (V c main_v14) (V c main_v16) (((cfg1.win 3).blk t).view.emb j)
  rw [hemb]
  refine point_eq (V c main_arg0) (V c main_v14) (V c main_v16) (iblk1 V c 0 t) (iblk1 V c 1 t) (iblk1 V c 2 t)
    (⟨t.val, ht⟩ : Fin 64) ?_ ?_ ?_ j
  · intro cc hh ww
    unfold iblk1
    rw [View.read_apply]
    show V c main_arg0 _ = V c main_arg0 _
    refine congrArg _ (funext fun a => Fin.ext ?_)
    match a with
    | ⟨0, _⟩ => show win1_0.index t (0 : Fin 4) * 1 + 1 * 0 = t.val; omega
    | ⟨1, _⟩ => show win1_0.index t (1 : Fin 4) * 256 + 1 * cc.val = cc.val; omega
    | ⟨2, _⟩ => show win1_0.index t (2 : Fin 4) * 56 + 1 * hh.val = hh.val; omega
    | ⟨3, _⟩ => show win1_0.index t (3 : Fin 4) * 56 + 1 * ww.val = ww.val; omega
  · funext y
    unfold iblk1
    rw [View.read_apply]
    show V c main_v14 _ = V c main_v14 y
    refine congrArg _ (funext fun a => Fin.ext ?_)
    match a with
    | ⟨0, _⟩ => show win1_1.index t (0 : Fin 4) * 1 + 1 * (y 0).val = (y 0).val; omega
    | ⟨1, _⟩ => show win1_1.index t (1 : Fin 4) * 256 + 1 * (y 1).val = (y 1).val; omega
    | ⟨2, _⟩ => show win1_1.index t (2 : Fin 4) * 1 + 1 * (y 2).val = (y 2).val; omega
    | ⟨3, _⟩ => show win1_1.index t (3 : Fin 4) * 1 + 1 * (y 3).val = (y 3).val; omega
  · funext y
    unfold iblk1
    rw [View.read_apply]
    show V c main_v16 _ = V c main_v16 y
    refine congrArg _ (funext fun a => Fin.ext ?_)
    match a with
    | ⟨0, _⟩ => show win1_2.index t (0 : Fin 4) * 1 + 1 * (y 0).val = (y 0).val; omega
    | ⟨1, _⟩ => show win1_2.index t (1 : Fin 4) * 256 + 1 * (y 1).val = (y 1).val; omega
    | ⟨2, _⟩ => show win1_2.index t (2 : Fin 4) * 1 + 1 * (y 2).val = (y 2).val; omega
    | ⟨3, _⟩ => show win1_2.index t (3 : Fin 4) * 1 + 1 * (y 3).val = (y 3).val; omega

/-! ## The blocks tile the output -/

/-- An index of the output is in point `t`'s block iff each coordinate is in the block's range on its axis. -/
theorem mem_blk (t : Fin cfg1.N) (i : S64x256x56x56.Idx) :
    i ∈ ((cfg1.win 3).blk t).view.set ↔ ∀ a : Fin 4, win1_3.index t a * S1x256x56x56.size a ≤ (i a).val ∧ (i a).val < win1_3.index t a * S1x256x56x56.size a + S1x256x56x56.size a := by
  show i ∈ ((View.whole main_v17).slice (win1_3.rect t)).set ↔ _
  rw [View.set_slice_whole, Rect.mem_set_unit]
  exact Iff.rfl

/-- Every index of the output is in the block of the point named by its batch. -/
theorem cover (i : S64x256x56x56.Idx) :
    ∃ t : Fin cfg1.N, (cfg1.win 3).flush t = true ∧ i ∈ ((cfg1.win 3).blk t).view.set := by
  have hN : cfg1.N = 64 := N_1
  have hi0 : (i 0).val < 64 := (i 0).isLt
  have hi1 : (i 1).val < 256 := (i 1).isLt
  have hi2 : (i 2).val < 56 := (i 2).isLt
  have hi3 : (i 3).val < 56 := (i 3).isLt
  let t : Fin cfg1.N := ⟨(i 0).val, by omega⟩
  obtain ⟨e00, e01, e02, e03, e30, e31, e32, e33, -⟩ := idx_facts t
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; rw [e30]; show (i 0).val * 1 ≤ (i 0).val ∧ (i 0).val < (i 0).val * 1 + 1; omega
  | ⟨1, _⟩ => show win1_3.index t (1 : Fin 4) * 256 ≤ (i 1).val ∧ (i 1).val < win1_3.index t (1 : Fin 4) * 256 + 256; omega
  | ⟨2, _⟩ => show win1_3.index t (2 : Fin 4) * 56 ≤ (i 2).val ∧ (i 2).val < win1_3.index t (2 : Fin 4) * 56 + 56; omega
  | ⟨3, _⟩ => show win1_3.index t (3 : Fin 4) * 56 ≤ (i 3).val ∧ (i 3).val < win1_3.index t (3 : Fin 4) * 56 + 56; omega

/-- The output array after the region: the affine map of the arrays the region finds. -/
theorem final (c : Dev nD) :
    (dat1 V c).arrAt 3 cfg1.N = affine (V c main_arg0) (V c main_v14) (V c main_v16) :=
  (dat1 V c).arrAt_eq_of_cover 3 (affine (V c main_arg0) (V c main_v14) (V c main_v16)) (fun t _ => flushed_eq V c t) cover

end Cert.KernelIdeal.Norm

end
-- ==== Proof.Mid.lean ====
/-
  Between the two regions: the host turns the channel sums into an affine map's coefficients.

  With `S` and `Q` the arrays of sums and of sums of squares ([1, 256, 1, 1]): mean `μ = S / n`, variance
  `max (Q / n − μ · μ, 0)`, scale `a = γ · rsqrt (variance + ε)`, shift `d = β − μ · a`; `γ` and `β` are the [256]
  parameters laid out as [1, 256, 1, 1]. The second region finds `a` and `d` in the buffers these operations wrote.
-/
import proofs.«117669_j180388626599_2_alg».proof.Proof.Gen.KernelIdeal.Frame
import proofs.«117669_j180388626599_2_alg».proof.Proof.Spec
import Idealize.ShloMosaic.Lib.Pipeline.Value
import Idealize.ShloMosaic.Lib.StableHlo.Run
import Idealize.ShloMosaic.PureOps.Ideal.Laws

set_option maxRecDepth 16384

noncomputable section

namespace Cert.KernelIdeal.Mid

open Cert.KernelIdeal Cert.KernelIdeal.Gen Cert.BatchNorm
open Idealize.ShloMosaic Idealize.ShloMosaic.TcCoe Idealize.SL.Sem Idealize.ShloMosaic.ValueIdx Idealize.ShloMosaic.StableHlo

variable {F : FTy → Type} [FloatOps F]

/-- A scalar constant spread over a per-channel block. -/
abbrev splat (w : BitVec 32) : FVec F S1x256x1x1 .f32 :=
  broadcastInDim S1x256x1x1 ![] bcast_S_S1x256x1x1 (constant S_ .f32 w)

/-- The channel means. -/
def meanOf (S : FVec F S1x256x1x1 .f32) : FVec F S1x256x1x1 .f32 := Host.divf S (splat 0x48440000#32)

/-- The scale `γ · rsqrt (max (Q / n − μ · μ, 0) + ε)`. -/
def scaleOf (S Q : FVec F S1x256x1x1 .f32) (g : FVec F S256 .f32) : FVec F S1x256x1x1 .f32 :=
  mulf (shapeCast S1x256x1x1 g shapeCasts_S256_S1x256x1x1)
    (Host.rsqrt (addf (maximumf (subf (Host.divf Q (splat 0x48440000#32)) (mulf (meanOf S) (meanOf S))) (splat 0x00000000#32))
      (splat 0x3727C5AC#32)))

/-- The shift `β − μ · scale`. -/
def shiftOf (S Q : FVec F S1x256x1x1 .f32) (g b : FVec F S256 .f32) : FVec F S1x256x1x1 .f32 :=
  subf (shapeCast S1x256x1x1 b shapeCasts_S256_S1x256x1x1) (mulf (meanOf S) (scaleOf S Q g))

variable (m : (ℓ : Loc nD τ sig) → Buf (Elt F) ℓ) (ρ : Dev nD → PrngReg)

/-- What the second region finds as its scale: the host operations' term of the first region's arrays and `γ`. -/
theorem entry_scale (c : Dev nD) :
    V2 m ρ c main_v14 = scaleOf (W1 m ρ c (Proc.devRef .tc main_v0_0)) (W1 m ρ c (Proc.devRef .tc main_v0_1))
      (W1 m ρ c (Proc.devRef .tc main_arg1)) := by
  show StableHlo.after hostOps1 (W1 m ρ c) (Proc.devRef .tc main_v14) = _
  after_results
  rfl

/-- What it finds as its shift. -/
theorem entry_shift (c : Dev nD) :
    V2 m ρ c main_v16 = shiftOf (W1 m ρ c (Proc.devRef .tc main_v0_0)) (W1 m ρ c (Proc.devRef .tc main_v0_1))
      (W1 m ρ c (Proc.devRef .tc main_arg1)) (W1 m ρ c (Proc.devRef .tc main_arg2)) := by
  show StableHlo.after hostOps1 (W1 m ρ c) (Proc.devRef .tc main_v16) = _
  after_results
  rfl

/-! ## The coefficients at a channel, on the extended reals -/

/-- A spread scalar constant reads as what its word denotes. -/
theorem splat_apply (w : BitVec 32) (j : S1x256x1x1.Idx) : splat (F := Ideal) w j = Ideal.ofBits .f32 w :=
  (broadcastInDim_apply _ bcast_S_S1x256x1x1 (constant (F := Ideal) S_ .f32 w) j ix0 (fun a => a.elim0)).trans rfl

/-- A [256] parameter laid out as [1, 256, 1, 1], at channel `ch`: its entry `ch`. -/
theorem param_apply (g : FVec Ideal S256 .f32) (ch : Fin 256) :
    shapeCast S1x256x1x1 g shapeCasts_S256_S1x256x1x1 (ix4 0 ch 0 0) = g (ix1 ch) :=
  shapeCast_apply g _ (ix4 0 ch 0 0) (ix1 ch) (by
    rw [Shape.rowMajor_val_one, Shape.rowMajor_val_four]
    show ch.val = ((0 * 256 + ch.val) * 1 + 0) * 1 + 0
    omega)

/-- The mean at a channel: the channel's sum over the count. -/
theorem meanOf_apply (S : FVec Ideal S1x256x1x1 .f32) (ch : Fin 256) (s : EReal) (hS : S (ix4 0 ch 0 0) = s) :
    meanOf (F := Ideal) S (ix4 0 ch 0 0) = Ideal.div s count := by
  unfold meanOf
  show Ideal.div (S (ix4 0 ch 0 0)) (splat (F := Ideal) 0x48440000#32 (ix4 0 ch 0 0)) = _
  rw [splat_apply, hS]
  rfl

/-- The scale at a channel. -/
theorem scaleOf_apply (S Q : FVec Ideal S1x256x1x1 .f32) (g : FVec Ideal S256 .f32) (ch : Fin 256) (s q : EReal)
    (hS : S (ix4 0 ch 0 0) = s) (hQ : Q (ix4 0 ch 0 0) = q) :
    scaleOf (F := Ideal) S Q g (ix4 0 ch 0 0)
      = g (ix1 ch) * Ideal.rsqrt (max (Ideal.div q count - Ideal.div s count * Ideal.div s count) 0 + eps) := by
  unfold scaleOf
  show shapeCast S1x256x1x1 g shapeCasts_S256_S1x256x1x1 (ix4 0 ch 0 0)
      * Ideal.rsqrt (max (Ideal.div (Q (ix4 0 ch 0 0)) (splat (F := Ideal) 0x48440000#32 (ix4 0 ch 0 0))
          - meanOf (F := Ideal) S (ix4 0 ch 0 0) * meanOf (F := Ideal) S (ix4 0 ch 0 0))
        (splat (F := Ideal) 0x00000000#32 (ix4 0 ch 0 0)) + splat (F := Ideal) 0x3727C5AC#32 (ix4 0 ch 0 0)) = _
  rw [param_apply, splat_apply, splat_apply, splat_apply, meanOf_apply S ch s hS, hQ, Ideal.ofBits_zero_f32]
  rfl

/-- The shift at a channel. -/
theorem shiftOf_apply (S Q : FVec Ideal S1x256x1x1 .f32) (g b : FVec Ideal S256 .f32) (ch : Fin 256) (s a : EReal)
    (hS : S (ix4 0 ch 0 0) = s) (ha : scaleOf (F := Ideal) S Q g (ix4 0 ch 0 0) = a) :
    shiftOf (F := Ideal) S Q g b (ix4 0 ch 0 0) = b (ix1 ch) - Ideal.div s count * a := by
  unfold shiftOf
  show shapeCast S1x256x1x1 b shapeCasts_S256_S1x256x1x1 (ix4 0 ch 0 0)
      - meanOf (F := Ideal) S (ix4 0 ch 0 0) * scaleOf (F := Ideal) S Q g (ix4 0 ch 0 0) = _
  rw [param_apply, meanOf_apply S ch s hS, ha]

end Cert.KernelIdeal.Mid

end
-- ==== Proof.KValue.lean ====
/-
  The kernel's result array, as one function of the three arguments.

  The statistics region leaves the channel sums of `x` and of `x²`; the host operations turn them into a scale and a
  shift per channel; the normalising region writes `x · scale + shift`. Neither region nor any host operation
  writes an argument array, so each stage finds `x`, `γ` and `β` as launched. Entry by entry the result is the
  one-sweep batch normalisation of the arguments.
-/
import proofs.«117669_j180388626599_2_alg».proof.Proof.KRun
import proofs.«117669_j180388626599_2_alg».proof.Proof.StatsValue
import proofs.«117669_j180388626599_2_alg».proof.Proof.Norm
import proofs.«117669_j180388626599_2_alg».proof.Proof.Mid
import proofs.«117669_j180388626599_2_alg».proof.Proof.Spec

set_option maxRecDepth 16384

noncomputable section

namespace Cert.KernelIdeal.Result

open Cert.KernelIdeal Cert.KernelIdeal.Gen Cert.BatchNorm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three arguments as launched, as arrays of extended reals. -/
abbrev xs (c : Dev nD) : SX.Idx → EReal := m ((c.tc : Thread nD τ).loc main_arg0)
abbrev gs (c : Dev nD) : SC.Idx → EReal := m ((c.tc : Thread nD τ).loc main_arg1)
abbrev bs (c : Dev nD) : SC.Idx → EReal := m ((c.tc : Thread nD τ).loc main_arg2)

/-- The normalising region finds the activations as launched. -/
theorem entry_acts (c : Dev nD) : V2 m ρ c main_arg0 = m ((c.tc : Thread nD τ).loc main_arg0) :=
  ((W3_arr m ρ c 0).trans (((dat1 (V2 m ρ) c).arrAt_in 0 rfl _).trans (A_eq1 (V2 m ρ) c 0))).symm.trans
    (W3_main_arg0 m ρ c)

/-- The statistics region leaves the running sums after its last point in its two arrays, -/
theorem stats_sum (c : Dev nD) : W1 m ρ c (Proc.devRef .tc main_v0_0) = (Stats.sums (V0 m ρ) c).1 :=
  (W1_arr m ρ c 1).trans (Stats.final_sum (V0 m ρ) c)
theorem stats_sq (c : Dev nD) : W1 m ρ c (Proc.devRef .tc main_v0_1) = (Stats.sums (V0 m ρ) c).2 :=
  (W1_arr m ρ c 2).trans (Stats.final_sq (V0 m ρ) c)

/-- and the two parameters as launched. -/
theorem kept_gamma (c : Dev nD) : W1 m ρ c (Proc.devRef .tc main_arg1) = m ((c.tc : Thread nD τ).loc main_arg1) :=
  W1_of_ne m ρ c main_arg1 (by decide)
theorem kept_beta (c : Dev nD) : W1 m ρ c (Proc.devRef .tc main_arg2) = m ((c.tc : Thread nD τ).loc main_arg2) :=
  W1_of_ne m ρ c main_arg2 (by decide)

/-- The result array after the run is the one-sweep batch normalisation of the arguments. -/
theorem result_eq (c : Dev nD) :
    W3 m ρ c (Proc.devRef .tc main_v17) = oneSweep (xs m c) (gs m c) (bs m c) := by
  rw [Whole.fold_result, Norm.final (V2 m ρ) c, entry_acts, Mid.entry_scale, Mid.entry_shift, stats_sum, stats_sq,
    kept_gamma, kept_beta]
  funext i
  obtain ⟨b, ch, h, w, rfl⟩ : ∃ (b : Fin 64) (ch : Fin 256) (h w : Fin 56), i = ix4 b ch h w :=
    ⟨i 0, i 1, i 2, i 3, eq_ix4 i⟩
  obtain ⟨hs, hq⟩ := StatsValue.sums_apply (V0 m ρ) c ch
  have ha := Mid.scaleOf_apply (Stats.sums (V0 m ρ) c).1 (Stats.sums (V0 m ρ) c).2 (gs m c) ch _ _ hs hq
  rw [Norm.affine_ix4, oneSweep_ix4, ha, Mid.shiftOf_apply _ _ _ (bs m c) ch _ _ hs ha]
  rfl

end Cert.KernelIdeal.Result

end
-- ==== Proof.RefValue.lean ====
/-
  The reference program's result, as a function of its three arguments on the extended reals, is the two-sweep
  formula of the specification: mean `μ = S / n`, variance `(Σ (x − μ)²) / n`, result
  `(x − μ) · rsqrt (var + ε) · γ + β`.

  The two reductions sum over the axes 0, 2, 3 of `[64, 256, 56, 56]` into `[256]`: at channel `c` the indices that
  drop to `c` are exactly the images `(b, c, h, w)` of the channel's positions `(b, h, w)`, so the reduction from the
  zero word is the sum over the positions (`reduce_chan`). Every other stage reads one element of each operand; a
  broadcast from `[1, 256, 1, 1]` reads `(0, c, 0, 0)`, and a broadcast or reshape from `[256]` reads `c`.
-/
import proofs.«117669_j180388626599_2_alg».proof.Proof.Spec
import proofs.«117669_j180388626599_2_alg».proof.Proof.Gen.ReferenceIdeal.Read
import Idealize.ShloMosaic.Lib.ValueIdx
import Idealize.ShloMosaic.Lib.IdealHost
import Idealize.ShloMosaic.PureOps.Ideal.Laws

noncomputable section

namespace Cert.RefValue

open Idealize.ShloMosaic Idealize.ShloMosaic.ValueIdx
open Cert.BatchNorm Cert.ReferenceIdeal Cert.ReferenceIdeal.Gen Cert.ReferenceIdeal.Read

/-! ## The sum over the axes 0, 2, 3 at channel `c` is the sum over the channel's positions -/

/-- Dropping the axes 0, 2, 3 of `(b, c, h, w)` leaves `c`. -/
theorem drop_ix4 (b : Fin 64) (c : Fin 256) (h w : Fin 56) :
    reducesTo_S64x256x56x56_S256_d0_2_3.drop (ix4 b c h w) = ix1 c := by
  funext a
  match a with
  | ⟨0, _⟩ => rfl

/-- An index that drops to `c` has `c` on axis 1. -/
theorem eq_ix4_of_drop (i : S64x256x56x56.Idx) (c : Fin 256)
    (hd : reducesTo_S64x256x56x56_S256_d0_2_3.drop i = ix1 c) : i = ix4 (i 0) c (i 2) (i 3) := by
  have h1 : i 1 = c := by
    have := congrFun hd 0
    exact Fin.ext (congrArg Fin.val this)
  subst h1
  exact eq_ix4 i

/-- The positions of channel `c`, as indices of the array. -/
def posEmb (c : Fin 256) : Pos ↪ S64x256x56x56.Idx :=
  ⟨fun p => ix4 p.1 c p.2.1 p.2.2, fun p q h =>
    Prod.ext (congrFun h 0) (Prod.ext (congrFun h 2) (congrFun h 3))⟩

/-- The indices the reduction sums at `c` are the channel's positions. -/
theorem filter_drop (c : Fin 256) :
    Finset.univ.filter (fun i : S64x256x56x56.Idx => reducesTo_S64x256x56x56_S256_d0_2_3.drop i = ix1 c)
      = Finset.univ.map (posEmb c) := by
  ext i
  simp only [Finset.mem_filter, Finset.mem_univ, true_and, Finset.mem_map, posEmb, Function.Embedding.coeFn_mk]
  exact ⟨fun hd => ⟨(i 0, i 2, i 3), (eq_ix4_of_drop i c hd).symm⟩, fun ⟨p, hp⟩ => hp ▸ drop_ix4 p.1 c p.2.1 p.2.2⟩

/-- The host's sum over the axes 0, 2, 3 from the zero word, at channel `c`, is the channel's sum. -/
theorem reduce_chan (f : SX.Idx → EReal) (c : Fin 256) :
    Host.reduceAdd (F := Ideal) (φ := .f32) f (constant (F := Ideal) S_ .f32 0x00000000#32)
      reducesTo_S64x256x56x56_S256_d0_2_3 h_S_ (ix1 c) = chanSum f c := by
  rw [hostReduceAdd_apply]
  unfold Ideal.hostReduceAdd
  rw [filter_drop, Finset.sum_map, constant_apply, Ideal.ofBits_zero_f32, zero_add]
  rfl

/-! ## The broadcasts' and reshapes' index functions at literal coordinates -/

/-- The full-size index `(b, c, h, w)` reads the `[1, 256, 1, 1]` operand at `(0, c, 0, 0)`. -/
theorem idx4 (b : Fin 64) (c : Fin 256) (h w : Fin 56) :
    idx_main_v4 (ix4 b c h w) = ix4 (0 : Fin 1) c (0 : Fin 1) (0 : Fin 1) := by
  funext a
  match a with
  | ⟨0, _⟩ => rfl
  | ⟨1, _⟩ => rfl
  | ⟨2, _⟩ => rfl
  | ⟨3, _⟩ => rfl

/-- The `[1, 256, 1, 1]` index `(0, c, 0, 0)` reads the `[256]` operand at `c`. -/
theorem idx1 (c : Fin 256) : idx_main_v1 (ix4 (0 : Fin 1) c (0 : Fin 1) (0 : Fin 1)) = ix1 c := by
  funext a
  match a with
  | ⟨0, _⟩ => rfl

/-- The reshape `[256] → [1, 256, 1, 1]` reads `(0, c, 0, 0)` at `c`. -/
theorem idx18 (c : Fin 256) : idx_main_v18 (ix4 (0 : Fin 1) c (0 : Fin 1) (0 : Fin 1)) = ix1 c := by
  funext a
  match a with
  | ⟨0, _⟩ => exact Fin.ext (by show ((0 * 256 + c.val) * 1 + 0) * 1 + 0 = c.val; omega)

/-! ## The reference's stages at an index -/

/-- The mean stage at `(0, c, 0, 0)` is the channel mean. -/
theorem v3_read (x : SX.Idx → EReal) (c : Fin 256) :
    val_main_v3 (F := Ideal) x (ix4 (0 : Fin 1) c (0 : Fin 1) (0 : Fin 1)) = mean x c := by
  rw [val_main_v3_apply, val_main_v1_apply, val_main_v2_apply, val_main_cst_0_apply, idx1]
  unfold val_main_v0 val_main_cst
  rw [reduce_chan]
  rfl

/-- The centred stage at `(b, c, h, w)`. -/
theorem v5_read (x : SX.Idx → EReal) (b : Fin 64) (c : Fin 256) (h w : Fin 56) :
    val_main_v5 (F := Ideal) x (ix4 b c h w) = x (ix4 b c h w) - mean x c := by
  rw [val_main_v5_apply, val_main_v4_apply, idx4, v3_read]
  rfl

/-- The centred squares, as a function of the index. -/
theorem v6_eq (x : SX.Idx → EReal) :
    val_main_v6 (F := Ideal) x = fun i => (x i - mean x (i 1)) * (x i - mean x (i 1)) := by
  funext i
  obtain ⟨b, c, h, w, rfl⟩ : ∃ (b : Fin 64) (c : Fin 256) (h w : Fin 56), i = ix4 b c h w :=
    ⟨i 0, i 1, i 2, i 3, eq_ix4 i⟩
  rw [val_main_v6_apply, v5_read]
  rfl

/-- The variance stage at `(0, c, 0, 0)` is the mean of the centred squares. -/
theorem v10_read (x : SX.Idx → EReal) (c : Fin 256) :
    val_main_v10 (F := Ideal) x (ix4 (0 : Fin 1) c (0 : Fin 1) (0 : Fin 1)) = var2 x c := by
  rw [val_main_v10_apply, val_main_v8_apply, val_main_v9_apply, val_main_cst_2_apply,
    show idx_main_v8 (ix4 (0 : Fin 1) c (0 : Fin 1) (0 : Fin 1)) = ix1 c from idx1 c]
  unfold val_main_v7 val_main_cst_1
  rw [reduce_chan, v6_eq]
  rfl

/-- The reciprocal root stage at `(0, c, 0, 0)`. -/
theorem v13_read (x : SX.Idx → EReal) (c : Fin 256) :
    val_main_v13 (F := Ideal) x (ix4 (0 : Fin 1) c (0 : Fin 1) (0 : Fin 1)) = Ideal.rsqrt (var2 x c + eps) := by
  rw [val_main_v13_apply, val_main_v12_apply, v10_read, val_main_v11_apply, val_main_cst_3_apply]
  rfl

/-- The reference's result is the two-sweep formula. -/
theorem ref_eq (x : Cert.BatchNorm.SX.Idx → EReal) (γ β : Cert.BatchNorm.SC.Idx → EReal) :
    Cert.ReferenceIdeal.Read.val_main_v23 (F := Ideal) x γ β = Cert.BatchNorm.twoSweep x γ β := by
  funext i
  obtain ⟨b, c, h, w, rfl⟩ : ∃ (b : Fin 64) (c : Fin 256) (h w : Fin 56), i = ix4 b c h w :=
    ⟨i 0, i 1, i 2, i 3, eq_ix4 i⟩
  rw [twoSweep_ix4, val_main_v23_apply, val_main_v20_apply, val_main_v17_apply, val_main_v15_apply,
    val_main_v14_apply, val_main_v16_apply, val_main_v19_apply, val_main_v18_apply, val_main_v22_apply,
    val_main_v21_apply]
  rw [show idx_main_v14 (ix4 b c h w) = ix4 (0 : Fin 1) c (0 : Fin 1) (0 : Fin 1) from idx4 b c h w,
    show idx_main_v16 (ix4 b c h w) = ix4 (0 : Fin 1) c (0 : Fin 1) (0 : Fin 1) from idx4 b c h w,
    show idx_main_v19 (ix4 b c h w) = ix4 (0 : Fin 1) c (0 : Fin 1) (0 : Fin 1) from idx4 b c h w,
    show idx_main_v22 (ix4 b c h w) = ix4 (0 : Fin 1) c (0 : Fin 1) (0 : Fin 1) from idx4 b c h w,
    show idx_main_v21 (ix4 (0 : Fin 1) c (0 : Fin 1) (0 : Fin 1)) = ix1 c from idx18 c,
    idx18, v3_read, v13_read]
  rfl

end Cert.RefValue

end
-- ==== Proof.Finite.lean ====
/-
  The precondition's printed predicate says, of each of the three argument arrays, that every entry's absolute value
  is below `+∞`. Over the extended reals `max a (−a) < ⊤` excludes `a = ⊥` (then `−a = ⊤`) and `a = ⊤`, so every
  entry is a real number.
-/
import proofs.«117669_j180388626599_2_alg».proof.Proof.Spec
import proofs.«117669_j180388626599_2_alg».proof.Proof.Gen.Pre_finite_inputs
import Idealize.ShloMosaic.Lib.ReduceAll
import Idealize.ShloMosaic.Lib.ValueIdx

noncomputable section

namespace Cert.BatchNorm

open Idealize.ShloMosaic Idealize.ShloMosaic.ValueIdx

/-- The scalar shape has one index. -/
instance subsingleton_scalar_idx : Subsingleton Cert.Pre_finite_inputs.S_.Idx :=
  ⟨fun a b => funext fun d => d.elim0⟩

/-- The f32 word `0x7F800000` denotes `+∞`. -/
theorem ofBits_inf_f32 : Ideal.ofBits .f32 0x7F800000#32 = (⊤ : EReal) := by
  simp [Ideal.ofBits, Ideal.ieee]

/-- An extended real whose absolute value compares below `+∞` is a real number. -/
theorem real_of_abs_lt_inf (a : EReal)
    (h : Ideal.cmp .olt (max a (-a)) (Ideal.ofBits .f32 0x7F800000#32) = 1#1) : ∃ r : ℝ, a = (r : EReal) := by
  rw [ofBits_inf_f32] at h
  induction a using EReal.rec with
  | bot => exact absurd h (by simp [Ideal.cmp])
  | coe r => exact ⟨r, rfl⟩
  | top => exact absurd h (by simp [Ideal.cmp])

/-- Under the precondition every entry of the three arguments is a real number. -/
theorem allReal_of_pre (x : SX.Idx → EReal) (γ β : SC.Idx → EReal)
    (h : Cert.Pre_finite_inputs.fn (F := Ideal) x γ β = fun _ => 1#1) : AllReal x ∧ AllReal γ ∧ AllReal β := by
  have h0 := congrFun h ValueIdx.ix0
  dsimp only [Cert.Pre_finite_inputs.fn] at h0
  obtain ⟨h01, hβ⟩ := IntOp.andi_eq_one.1 h0
  obtain ⟨hx, hγ⟩ := IntOp.andi_eq_one.1 h01
  exact ⟨fun i => real_of_abs_lt_inf _ (Host.reduce_andi_all _ _ _ _ _ hx i),
    fun i => real_of_abs_lt_inf _ (Host.reduce_andi_all _ _ _ _ _ hγ i),
    fun i => real_of_abs_lt_inf _ (Host.reduce_andi_all _ _ _ _ _ hβ i)⟩

end Cert.BatchNorm

end
-- ==== Proof.Algebra.lean ====
/-
  Training-mode batch normalisation: the one-sweep formula and the two-sweep formula agree on real data.

  Per channel, over the n = 200704 positions, write S = Σ x, Q = Σ x², μ = S / n. Then
  Σ (x − μ)² = Q − 2 μ S + n μ² = Q − n μ², so (Σ (x − μ)²) / n = Q / n − μ². The left side is a sum of
  squares over a positive n, hence ≥ 0, so the clamp max (Q / n − μ², 0) of the one-sweep variance does nothing
  and both variances are the same real v ≥ 0. With ε > 0 the reciprocal square root is taken at v + ε > 0, where
  it is the real (√(v + ε))⁻¹ =: r, and x · (γ r) + (β − μ · (γ r)) = (x − μ) · r · γ + β in ℝ.
-/
import proofs.«117669_j180388626599_2_alg».proof.Proof.Spec
import Mathlib.Tactic

noncomputable section

namespace Cert.BatchNorm

open Idealize.ShloMosaic Idealize.ShloMosaic.ValueIdx

/-! ## The two constants -/

/-- The word 0x48440000 denotes the real 200704 = (2²³ + 4456448) · 2⁻⁶. -/
theorem count_eq : count = ((200704 : ℝ) : EReal) := by
  simp [count, Ideal.ofBits, Ideal.ieee, -EReal.coe_mul]; norm_num

/-- The word 0x3727C5AC denotes a positive real, (2²³ + 2606508) · 2⁻⁴⁰. -/
theorem eps_eq : ∃ e : ℝ, 0 < e ∧ eps = (e : EReal) := by
  refine ⟨(10995116 : ℝ) * (2 : ℝ) ^ (-40 : ℤ), by positivity, ?_⟩
  simp [eps, Ideal.ofBits, Ideal.ieee, -EReal.coe_mul]

/-! ## Finite sums of reals inside the extended reals -/

/-- The inclusion of ℝ in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The variance identity in ℝ -/

/-- Over a finite type of n > 0 elements, with μ the mean of g:
    (Σ (g − μ)²) / n = (Σ g²) / n − μ². Division by n is written as the product with 1 / n. -/
theorem sum_centred_sq {ι : Type*} [Fintype ι] (n : ℝ) (hn : (Fintype.card ι : ℝ) = n) (hpos : 0 < n)
    (g : ι → ℝ) (μ : ℝ) (hμ : μ = (∑ j, g j) * (1 / n)) :
    (∑ i, (g i - μ) * (g i - μ)) * (1 / n) = (∑ i, g i * g i) * (1 / n) - μ * μ := by
  have hS : ∑ j, g j = n * μ := by rw [hμ]; field_simp
  have hexp : ∑ i, (g i - μ) * (g i - μ) = (∑ i, g i * g i) - 2 * μ * (∑ i, g i) + n * (μ * μ) := by
    have h : ∀ i, (g i - μ) * (g i - μ) = g i * g i - 2 * μ * g i + μ * μ := fun i => by ring
    simp only [h, Finset.sum_add_distrib, Finset.sum_sub_distrib, ← Finset.mul_sum, Finset.sum_const,
      Finset.card_univ, nsmul_eq_mul, hn]
    ring
  rw [hexp, hS]; field_simp; ring

/-- A channel has 64 · 56 · 56 = 200704 positions. -/
theorem card_Pos : (Fintype.card Pos : ℝ) = 200704 := by
  simp [Pos]

/-! ## The real counterparts of the channel statistics -/

/-- The sum of a real array over the positions of channel c. -/
def rsum (f : SX.Idx → ℝ) (c : Fin 256) : ℝ := ∑ p : Pos, f (ix4 p.1 c p.2.1 p.2.2)

/-- The real channel mean. -/
def rmean (f : SX.Idx → ℝ) (c : Fin 256) : ℝ := rsum f c * (1 / 200704)

/-- The real channel variance, as the mean of the centred squares. -/
def rvar (f : SX.Idx → ℝ) (c : Fin 256) : ℝ :=
  rsum (fun i => (f i - rmean f (i 1)) * (f i - rmean f (i 1))) c * (1 / 200704)

theorem rvar_eq (f : SX.Idx → ℝ) (c : Fin 256) :
    rvar f c = rsum (fun i => f i * f i) c * (1 / 200704) - rmean f c * rmean f c :=
  sum_centred_sq 200704 card_Pos (by norm_num) (fun p : Pos => f (ix4 p.1 c p.2.1 p.2.2)) (rmean f c) rfl

theorem rvar_nonneg (f : SX.Idx → ℝ) (c : Fin 256) : 0 ≤ rvar f c :=
  mul_nonneg (Finset.sum_nonneg fun _ _ => mul_self_nonneg _) (by norm_num)

/-! ## The channel statistics of a real array are real -/

theorem chanSum_coe (f : SX.Idx → ℝ) (c : Fin 256) :
    chanSum (fun i => (f i : EReal)) c = ((rsum f c : ℝ) : EReal) := by
  rw [chanSum, rsum, coe_sum]

theorem mean_coe (f : SX.Idx → ℝ) (c : Fin 256) :
    mean (fun i => (f i : EReal)) c = ((rmean f c : ℝ) : EReal) := by
  rw [mean, chanSum_coe, count_eq, Ideal.div_coe (by norm_num), ← EReal.coe_mul, rmean]

/-- The two-sweep variance is the real variance. -/
theorem var2_coe (f : SX.Idx → ℝ) (c : Fin 256) :
    var2 (fun i => (f i : EReal)) c = ((rvar f c : ℝ) : EReal) := by
  have h : (fun i : SX.Idx => ((f i : EReal) - mean (fun i => (f i : EReal)) (i 1)) *
        ((f i : EReal) - mean (fun i => (f i : EReal)) (i 1))) =
      fun i : SX.Idx => (((f i - rmean f (i 1)) * (f i - rmean f (i 1)) : ℝ) : EReal) := by
    funext i; rw [mean_coe f (i 1), ← EReal.coe_sub, ← EReal.coe_mul]
  rw [var2, h, chanSum_coe, count_eq, Ideal.div_coe (by norm_num), ← EReal.coe_mul, rvar]

/-- The one-sweep variance is the same real: its clamp at 0 acts on a nonnegative number. -/
theorem var1_coe (f : SX.Idx → ℝ) (c : Fin 256) :
    var1 (fun i => (f i : EReal)) c = ((rvar f c : ℝ) : EReal) := by
  have h : (fun i : SX.Idx => (f i : EReal) * (f i : EReal)) = fun i : SX.Idx => ((f i * f i : ℝ) : EReal) := by
    funext i; rw [EReal.coe_mul]
  rw [var1, mean_coe, h, chanSum_coe, count_eq, Ideal.div_coe (by norm_num), ← EReal.coe_mul, ← EReal.coe_mul,
    ← EReal.coe_sub, ← rvar_eq]
  exact max_eq_left (EReal.coe_nonneg.mpr (rvar_nonneg f c))

/-- At v ≥ 0 and ε > 0 the reciprocal square root of v + ε is the real (√(v + ε))⁻¹. -/
theorem rsqrt_add_coe (v e : ℝ) (hv : 0 ≤ v) (he : 0 < e) :
    Ideal.rsqrt ((v : EReal) + (e : EReal)) = (((Real.sqrt (v + e))⁻¹ : ℝ) : EReal) := by
  have h : 0 < v + e := by linarith
  rw [← EReal.coe_add, Ideal.rsqrt_coe, if_neg (not_lt.mpr h.le), if_neg h.ne']

/-! ## The two formulas agree -/

theorem oneSweep_eq_twoSweep (x : SX.Idx → EReal) (γ β : SC.Idx → EReal)
    (hx : AllReal x) (hγ : AllReal γ) (hβ : AllReal β) : oneSweep x γ β = twoSweep x γ β := by
  choose xr hxr using hx
  choose gr hgr using hγ
  choose br hbr using hβ
  obtain rfl : x = fun i => (xr i : EReal) := funext hxr
  obtain rfl : γ = fun i => (gr i : EReal) := funext hgr
  obtain rfl : β = fun i => (br i : EReal) := funext hbr
  obtain ⟨e, he, hee⟩ := eps_eq
  funext i
  obtain ⟨b, c, h, w, rfl⟩ : ∃ (b : Fin 64) (c : Fin 256) (h w : Fin 56), i = ix4 b c h w :=
    ⟨i 0, i 1, i 2, i 3, eq_ix4 i⟩
  rw [oneSweep_ix4, twoSweep_ix4, oneSweepAt, twoSweepAt, shift1, scale1, var1_coe, var2_coe, mean_coe, hee,
    rsqrt_add_coe _ _ (rvar_nonneg xr c) he]
  simp only [← EReal.coe_mul, ← EReal.coe_sub, ← EReal.coe_add]
  congr 1; ring

end Cert.BatchNorm

end
-- ==== Proof.lean ====
/-
  Training-mode batch normalisation over f32[64, 256, 56, 56] (channel axis 1): a two-region kernel against jnp.

  The kernel sums `x` and `x²` per channel in one sweep over the batches (a grid accumulator), forms on the host
  the mean `μ = S / n`, the variance `max (Q / n − μ², 0)`, a scale `γ · rsqrt (var + ε)` and a shift
  `β − μ · scale`, and in a second region writes `x · scale + shift`. The reference takes the mean, then the mean
  of the centred squares, and returns `(x − μ) · rsqrt (var + ε) · γ + β`. Both divide by the same `n = 200704`
  and add the same `ε`.

  On the extended reals a sum does not depend on its order or grouping, so the kernel's accumulated sums are the
  channel sums. The two variances agree, and the two results agree, by identities that move a factor across a
  sum and cancel — laws that need every entry to be a real number: that is what the precondition (every input
  finite) gives. For real data `Q / n − μ²` is the mean of the centred squares, hence non-negative, and the
  kernel's clamp at zero does nothing.

  The frames: each region's and each host stretch's run is generated, and the reference's frame is its generated run
  with the result dropped. The idealisation rewrote nothing, so `preserves` is trivial.
-/
import proofs.«117669_j180388626599_2_alg».proof.Defs
import proofs.«117669_j180388626599_2_alg».proof.Proof.Gen.Kernel
import proofs.«117669_j180388626599_2_alg».proof.Proof.Gen.Kernel.Skeleton
import proofs.«117669_j180388626599_2_alg».proof.Proof.Gen.Kernel.Launch
import proofs.«117669_j180388626599_2_alg».proof.Proof.Gen.Kernel.Points
import proofs.«117669_j180388626599_2_alg».proof.Proof.Gen.Kernel.Frame
import proofs.«117669_j180388626599_2_alg».proof.Proof.Gen.KernelIdeal
import proofs.«117669_j180388626599_2_alg».proof.Proof.Gen.KernelIdeal.Skeleton
import proofs.«117669_j180388626599_2_alg».proof.Proof.Gen.KernelIdeal.Launch
import proofs.«117669_j180388626599_2_alg».proof.Proof.Gen.KernelIdeal.Points
import proofs.«117669_j180388626599_2_alg».proof.Proof.Gen.KernelIdeal.Frame
import proofs.«117669_j180388626599_2_alg».proof.Proof.Gen.ReferenceIdeal
import proofs.«117669_j180388626599_2_alg».proof.Proof.Gen.Pre_finite_inputs
import proofs.«117669_j180388626599_2_alg».proof.Proof.Gen.ReferenceIdeal.Run
import proofs.«117669_j180388626599_2_alg».proof.Proof.Gen.ReferenceIdeal.Read
import proofs.«117669_j180388626599_2_alg».proof.Proof.KValue
import proofs.«117669_j180388626599_2_alg».proof.Proof.RefValue
import proofs.«117669_j180388626599_2_alg».proof.Proof.Finite
import proofs.«117669_j180388626599_2_alg».proof.Proof.Algebra
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On arguments that agree and are finite, the kernel's result array ends at the one-sweep batch normalisation
    of the arguments and the reference's at the two-sweep one: the same extended reals, entry by entry. -/
theorem algebraic : Cert.algebraic_KernelIdeal_ReferenceIdeal := by
  intro m ρ m' ρ' hpre hagree
  refine ⟨fun c => Cert.BatchNorm.oneSweep (Cert.KernelIdeal.Result.xs m c) (Cert.KernelIdeal.Result.gs m c)
    (Cert.KernelIdeal.Result.bs m c), ?_, ?_⟩
  · exact (θ_run Cert.KernelIdeal.defs _ _).mono
      (fun r h c => ⟨(h c).1.trans (Cert.KernelIdeal.Result.result_eq m ρ c), (h c).2⟩)
      (Cert.KernelIdeal.Whole.run_fold (F := Ideal) m ρ)
  · refine (θ_run Cert.ReferenceIdeal.defs _ _).mono (fun _ h c => ⟨?_, (h c).2⟩)
      (Cert.ReferenceIdeal.Value.run (F := Ideal) m' ρ')
    obtain ⟨hx, hγ, hβ⟩ := Cert.BatchNorm.allReal_of_pre _ _ _ (hpre c)
    rw [(h c).1, Cert.ReferenceIdeal.Read.val_main_v23_eq, (hagree c).1, (hagree c).2.1, (hagree c).2.2,
      Cert.RefValue.ref_eq]
    exact (Cert.BatchNorm.oneSweep_eq_twoSweep _ _ _ hx hγ hβ).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
